-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8x2048x4096 .f32) (main_arg1 : FVec F S4096x4096 .f32) (main_arg2 : IVec S4096x4096 1) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8x2048x4096 : Shape := ⟨3, ![8, 2048, 4096]⟩
abbrev S4096x4096 : Shape := ⟨2, ![4096, 4096]⟩
abbrev S512x4096 : Shape := ⟨2, ![512, 4096]⟩
abbrev S8x4096x2048 : Shape := ⟨3, ![8, 4096, 2048]⟩
abbrev S1024x4096 : Shape := ⟨2, ![1024, 4096]⟩
abbrev S1x256x4096 : Shape := ⟨3, ![1, 256, 4096]⟩
abbrev S1x1024x256 : Shape := ⟨3, ![1, 1024, 256]⟩
abbrev S256x4096 : Shape := ⟨2, ![256, 4096]⟩
abbrev S1024x256 : Shape := ⟨2, ![1024, 256]⟩

abbrev nBuf : Space → Nat
  | .hbm => 6
  | .vmem => 12
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096x4096, .i1⟩
  | .hbm, ⟨3, _⟩ => ⟨S4096x4096, .i32⟩
  | .hbm, ⟨4, _⟩ => ⟨S4096x4096, .bf16⟩
  | .hbm, ⟨5, _⟩ => ⟨S8x4096x2048, .f32⟩
  | .local _ .vmem, ⟨0, _⟩ => ⟨S512x4096, .f32⟩
  | .local _ .vmem, ⟨1, _⟩ => ⟨S512x4096, .f32⟩
  | .local _ .vmem, ⟨2, _⟩ => ⟨S512x4096, .i32⟩
  | .local _ .vmem, ⟨3, _⟩ => ⟨S512x4096, .i32⟩
  | .local _ .vmem, ⟨4, _⟩ => ⟨S512x4096, .bf16⟩
  | .local _ .vmem, ⟨5, _⟩ => ⟨S512x4096, .bf16⟩
  | .local _ .vmem, ⟨6, _⟩ => ⟨S1024x4096, .bf16⟩
  | .local _ .vmem, ⟨7, _⟩ => ⟨S1024x4096, .bf16⟩
  | .local _ .vmem, ⟨8, _⟩ => ⟨S1x256x4096, .f32⟩
  | .local _ .vmem, ⟨9, _⟩ => ⟨S1x256x4096, .f32⟩
  | .local _ .vmem, ⟨10, _⟩ => ⟨S1x1024x256, .f32⟩
  | .local _ .vmem, ⟨11, _⟩ => ⟨S1x1024x256, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 8, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S1x256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

class Facts₀ : Prop where
  natLt_1_32 : 1 < 32
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .i32 = 32 ∨ (Rect.block (s := S4096x4096) S512x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .bf16 = 32 ∨ (Rect.block (s := S4096x4096) S512x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S4096x4096.size a
  hwx1_0 : ∀ i : grid1.Coords, EltTy.bits .bf16 = 32 ∨ (Rect.block (s := S4096x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x4096.size a ≤ S8x2048x4096.size a
  hwx1_1 : ∀ i : grid1.Coords, EltTy.bits .f32 = 32 ∨ (Rect.block (s := S8x2048x4096) S1x256x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x256.size a ≤ S8x4096x2048.size a
  hwx1_2 : ∀ i : grid1.Coords, EltTy.bits .f32 = 32 ∨ (Rect.block (s := S8x4096x2048) S1x1024x256.size (cc1_transform_2 i) (hinb1_2 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S8x4096x2048 : Shape := ⟨3, ![8, 4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096x4096, .i1⟩
  | .hbm, ⟨3, _⟩ => ⟨S4096x4096, .f32⟩
  | .hbm, ⟨4, _⟩ => ⟨S4096x4096, .f32⟩
  | .hbm, ⟨5, _⟩ => ⟨S8x2048x4096, .f32⟩
  | .hbm, ⟨6, _⟩ => ⟨S8x4096x2048, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  transposes_S8x2048x4096_S8x4096x2048_0_2_1 : S8x2048x4096.Transposes [0, 2, 1] S8x4096x2048
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.MaskedProduct.lean ====
/-
  The function both programs compute, on the extended reals.

  With `x : [8, 2048, 4096]`, `w : [4096, 4096]` and a one-bit mask of `w`'s shape, the result at `(b, r, s)` is

      ∑ k : Fin 4096,  (if mask (r, k) = 1 then w (r, k) else 0) · x (b, s, k)

  — row `r` of the masked weight against row `s` of batch `b` of `x`, contracted over the last axis of both.
  The two scalar facts that join the two programs to it: a one-bit word widened to 32 bits and compared with
  zero is the bit itself (the kernel's test), and a weight times the bit read as a number is the masked weight
  (the reference's product; `w · 0 = 0` on every extended real, the infinities included, so no finiteness is used).
-/
import Idealize.ShloMosaic.PureOps.Ideal
import Idealize.ShloMosaic.Lib.ValueIdx

noncomputable section

namespace Cert.MaskedProduct

open Idealize.ShloMosaic Idealize.ShloMosaic.ValueIdx

/-- The weight's shape, `x`'s shape and the result's shape. -/
abbrev SW : Shape := ⟨2, ![4096, 4096]⟩
abbrev SX : Shape := ⟨3, ![8, 2048, 4096]⟩
abbrev SO : Shape := ⟨3, ![8, 4096, 2048]⟩

/-- Entry `(r, k)` of a `[4096, 4096]` array. -/
abbrev wAt (r k : Fin 4096) : SW.Idx := ix2 r k
/-- Entry `(b, s, k)` of a `[8, 2048, 4096]` array. -/
abbrev xAt (b : Fin 8) (s : Fin 2048) (k : Fin 4096) : SX.Idx := ix3 b s k
/-- Entry `(b, r, s)` of a `[8, 4096, 2048]` array. -/
abbrev oAt (b : Fin 8) (r : Fin 4096) (s : Fin 2048) : SO.Idx := ix3 b r s

/-- One entry of the masked weight: the weight where the mask bit is set, zero elsewhere. -/
def masked (w : EReal) (b : BitVec 1) : EReal := if b = 1#1 then w else 0

/-- The masked weight, entry by entry. -/
def maskedWeight (w : SW.Idx → EReal) (mk : SW.Idx → BitVec 1) : SW.Idx → EReal :=
  fun i => masked (w i) (mk i)

/-- Row `r` of a `[4096, 4096]` array against row `s` of batch `b` of `x`, contracted over the last axis. -/
def rowProduct (a : SW.Idx → EReal) (x : SX.Idx → EReal) : SO.Idx → EReal :=
  fun i => ∑ k : Fin 4096, a (wAt ⟨(i 1).val, (i 1).isLt⟩ k) * x (xAt ⟨(i 0).val, (i 0).isLt⟩ ⟨(i 2).val, (i 2).isLt⟩ k)

/-- The result: the masked weight's rows against `x`'s rows. -/
def result (x : SX.Idx → EReal) (w : SW.Idx → EReal) (mk : SW.Idx → BitVec 1) : SO.Idx → EReal :=
  rowProduct (maskedWeight w mk) x

/-- A bit widened to 32 bits differs from zero exactly when it is set. -/
theorem widened_ne_zero (b : BitVec 1) : IntOp.cmpi .ne (b.setWidth 32) 0#32 = b := by
  rcases BitVec.eq_zero_or_eq_one b with h | h <;> subst h <;> decide

/-- The kernel's entry: selecting the weight where the widened bit is not zero, the zero word elsewhere. -/
theorem select_widened (w : EReal) (b : BitVec 1) :
    Scalar.select (IntOp.cmpi .ne (b.setWidth 32) 0#32) w (Ideal.ofBits .f32 0x00000000#32) = masked w b := by
  rw [widened_ne_zero]
  unfold Scalar.select masked
  rcases BitVec.eq_zero_or_eq_one b with h | h <;> subst h <;> simp [Ideal.ofBits, Ideal.ieee]

/-- The reference's entry: the weight times the bit read as a number. -/
theorem mul_bit (w : EReal) (b : BitVec 1) : w * ((b.toNat : ℝ) : EReal) = masked w b := by
  unfold masked
  rcases BitVec.eq_zero_or_eq_one b with h | h <;> subst h <;> simp

end Cert.MaskedProduct

end
-- ==== Proof.ReferenceValue.lean ====
/-
  The reference at an index. Its four stages — the mask read as a number, the weight times it, the contraction
  of `x`'s last axis against the product's last axis (result laid out `[b, s, r]`), the transpose to
  `[b, r, s]` — read at `(b, r, s)` give `∑ k, x (b, s, k) · (w (r, k) · mask (r, k))`: the masked weight's
  row `r` against `x`'s row `(b, s)`, with the factors of each product in the other order.
-/
import proofs.«153969_j74345883894235_2_alg».proof.Proof.Gen.ReferenceIdeal.Read
import proofs.«153969_j74345883894235_2_alg».proof.Proof.MaskedProduct

noncomputable section

namespace Cert.ReferenceIdeal.RefValue

open Cert.ReferenceIdeal Cert.ReferenceIdeal.Read Cert.MaskedProduct
open Idealize.ShloMosaic Idealize.ShloMosaic.ValueIdx

/-- The reference's result is the masked weight's rows against `x`'s rows. -/
theorem reference_eq (x0 : (⟨S8x2048x4096, .f32⟩ : BufTy).Contents (Elt Ideal)) (x1 : (⟨S4096x4096, .f32⟩ : BufTy).Contents (Elt Ideal))
    (x2 : (⟨S4096x4096, .i1⟩ : BufTy).Contents (Elt Ideal)) :
    val_main_v3 (F := Ideal) x0 x1 x2 = result x0 x1 x2 := by
  funext i
  rw [val_main_v3_apply, val_main_v2_apply]
  unfold result rowProduct maskedWeight
  refine Finset.sum_congr rfl fun k _ => ?_
  rw [val_main_v1_apply, val_main_v0_apply]
  have el : lidx_main_v2 (idx_main_v3 i) k = xAt ⟨(i 0).val, (i 0).isLt⟩ ⟨(i 2).val, (i 2).isLt⟩ k :=
    funext fun a => Fin.ext (by match a with | ⟨0, _⟩ => rfl | ⟨1, _⟩ => rfl | ⟨2, _⟩ => rfl)
  have er : ridx_main_v2 (idx_main_v3 i) k = wAt ⟨(i 1).val, (i 1).isLt⟩ k :=
    funext fun a => Fin.ext (by match a with | ⟨0, _⟩ => rfl | ⟨1, _⟩ => rfl)
  rw [el, er]
  show x0 _ * (x1 _ * (((x2 _).toNat : ℝ) : EReal)) = _
  rw [mul_bit, mul_comm]

end Cert.ReferenceIdeal.RefValue

end
-- ==== Proof.MaskRegion.lean ====
/-
  The first region: the masked weight as an array.

  The grid has 8 points; point `t` stages rows `512 t … 512 t + 511` (all 4096 columns) of the weight and of the
  widened mask, and writes back the same rows of the output, each entry the weight where the widened mask word is
  not zero and the zero word elsewhere (the change of float format is the identity on the extended reals). The three
  windows move together, every row lies in the block of point `row / 512`, so whatever the buffers hold when the
  region is entered (`V`), the output array ends as that entrywise function of the two input arrays.
-/
import proofs.«153969_j74345883894235_2_alg».proof.Proof.Gen.KernelIdeal.Frame
import Idealize.ShloMosaic.Lib.Pipeline.Value
import Idealize.ShloMosaic.PureOps.Ideal

noncomputable section

namespace Cert.KernelIdeal.MaskRegion

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl

/-- The weight where the 32-bit mask word is not zero, the zero word elsewhere, entry by entry. -/
def selected (w : S4096x4096.Idx → Elt Ideal .f32) (mk : S4096x4096.Idx → Elt Ideal .i32) : S4096x4096.Idx → Elt Ideal .bf16 :=
  fun i => Scalar.select (IntOp.cmpi .ne (mk i) 0#32) (w i) (Ideal.ofBits .f32 0x00000000#32)

/-- The body's stored value is that selection of its two loaded blocks, entry by entry. -/
theorem stored_eq (v0 : Vec Ideal S512x4096 .i32) (v2 : Vec Ideal S512x4096 .f32) :
    k0_pay1 (F := Ideal) v0 v2 = fun j => Scalar.select (IntOp.cmpi .ne (v0 j) 0#32) (v2 j) (Ideal.ofBits .f32 0x00000000#32) := rfl

/-- The three windows' block indices coincide at every point. -/
theorem windows_together : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2) :=
  (by decide +kernel : ∀ t : Fin grid0.N, _)

/-- Every block of rows is some point's. -/
theorem rows_onto : ∀ q : Fin 8, ∃ t : Fin cfg0.N, win0_2.index t = ![q.val, 0] :=
  (by decide +kernel : ∀ q : Fin 8, ∃ t : Fin grid0.N, win0_2.index t = ![q.val, 0])

/-- What point `t` writes back is block `t` of the selection of the two arrays as the region finds them. -/
theorem flushed_eq (c : Dev nD) (t : Fin cfg0.N) :
    (dat0 V c).flushed 2 t = ((cfg0.win 2).blk t).view.read (Elt Ideal) (selected (V c main_arg1) (V c main_v0)) := by
  show (cfg0.win 2).cut (grid0.coords t) ((dat0 V c).after 2 t) = _
  rw [after0_2]
  unfold out0_2
  rw [View.canon_unit_zero zero2]
  simp only [View.ld_unit_zero (S := S512x4096) zero2]
  rw [stored_eq]
  obtain ⟨e0, e1, e2, e3⟩ := windows_together t
  funext j
  show Scalar.select (IntOp.cmpi .ne (V c main_v0 (((cfg0.win 1).blk t).view.emb j)) 0#32) (V c main_arg1 (((cfg0.win 0).blk t).view.emb j)) (Ideal.ofBits .f32 0x00000000#32)
    = Scalar.select (IntOp.cmpi .ne (V c main_v0 (((cfg0.win 2).blk t).view.emb j)) 0#32) (V c main_arg1 (((cfg0.win 2).blk t).view.emb j)) (Ideal.ofBits .f32 0x00000000#32)
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb j = ((cfg0.win 2).blk t).view.emb j := by
    funext a; apply Fin.ext
    match a with
    | ⟨0, _⟩ => show win0_1.index t (0 : Fin 2) * 512 + 1 * (j 0).val = win0_2.index t (0 : Fin 2) * 512 + 1 * (j 0).val; omega
    | ⟨1, _⟩ => show win0_1.index t (1 : Fin 2) * 4096 + 1 * (j 1).val = win0_2.index t (1 : Fin 2) * 4096 + 1 * (j 1).val; omega
  rw [h0, h1]

/-- An entry is in point `t`'s block iff each coordinate is in the block's range on its axis. -/
theorem mem_blk (t : Fin cfg0.N) (i : S4096x4096.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v1).slice (win0_2.rect t)).set ↔ _
  rw [View.set_slice_whole, Rect.mem_set_unit]
  exact Iff.rfl

/-- Every entry is in the block of the point its row's block of 512 names. -/
theorem covered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := rows_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 4096 ≤ (i 1).val ∧ (i 1).val < win0_2.index t (1 : Fin 2) * 4096 + 4096; omega

/-- The output array after the region: the selection of the two input arrays as the region found them. -/
theorem masked_array (c : Dev nD) :
    (dat0 V c).arrAt 2 cfg0.N = selected (V c main_arg1) (V c main_v0) :=
  (dat0 V c).arrAt_eq_of_cover 2 (selected (V c main_arg1) (V c main_v0)) (fun t _ => flushed_eq V c t) covered

end Cert.KernelIdeal.MaskRegion

end
-- ==== Proof.ProductRegion.lean ====
/-
  The second region: rows against rows.

  The grid is `4 × 8 × 8`; point `(mi, b, s)` stages rows `1024 mi … 1024 mi + 1023` of the `[4096, 4096]` array
  (all columns), rows `256 s … 256 s + 255` of batch `b` of `x` (all columns), and writes back the `[1, 1024, 256]`
  block `(b, mi, s)` of the output. The body contracts the last axis of the first block against the last axis of the
  second into a zero accumulator, so on the extended reals its entry `(0, p, q)` is `∑ k, a (p, k) · x (0, q, k)`:
  entry `(b, 1024 mi + p, 256 s + q)` of the rows-against-rows product of the two arrays as the region finds them.
  The output's blocks tile it (the block of `(b, r, s)` is that of `(r / 1024, b, s / 256)`), so the array ends as
  that product.
-/
import proofs.«153969_j74345883894235_2_alg».proof.Proof.Gen.KernelIdeal.Frame
import proofs.«153969_j74345883894235_2_alg».proof.Proof.MaskedProduct
import Idealize.ShloMosaic.Lib.Pipeline.Value
import Idealize.ShloMosaic.Lib.ValueIdx
import Idealize.ShloMosaic.PureOps.Ideal.Laws

noncomputable section

namespace Cert.KernelIdeal.ProductRegion

open Cert.KernelIdeal Cert.KernelIdeal.Gen Idealize.ShloMosaic Idealize.ShloMosaic.TcCoe Idealize.SL.Sem
open Idealize.ShloMosaic.Pipeline (Dat)
open Idealize.ShloMosaic.ValueIdx
open Cert.MaskedProduct (rowProduct wAt xAt)

variable (V : (c : Dev nD) → (b : Ref sig .tc) → Buf (Elt Ideal) ((c : Thread nD τ).loc b))

theorem zero2 : (![0, 0] : Fin 2 → Nat) = fun _ => 0 := funext fun a => by fin_cases a <;> rfl
theorem zero3 : (![0, 0, 0] : Fin 3 → Nat) = fun _ => 0 := funext fun a => by fin_cases a <;> rfl

/-! ## The body's product at an entry -/

/-- The product's left operand index keeps the output's row; -/
theorem lhs_row (i : S1024x256.Idx) (q : dot_S1024x4096_S256x4096_S1024x256_1_1_0_0_n_n.contr.Idx) :
    (dot_S1024x4096_S256x4096_S1024x256_1_1_0_0_n_n.lhsIdx i q 0).val = (i 0).val := by
  unfold DotDims.lhsIdx
  rw [dif_neg (show ¬(0 : Fin S1024x4096.rank) ∈ dot_S1024x4096_S256x4096_S1024x256_1_1_0_0_n_n.lhsBatch by decide), dif_pos (show (0 : Fin S1024x4096.rank) ∈ dot_S1024x4096_S256x4096_S1024x256_1_1_0_0_n_n.lhsNonContracting by decide)]
  rfl
/-- its column is the contraction index. -/
theorem lhs_col (i : S1024x256.Idx) (q : dot_S1024x4096_S256x4096_S1024x256_1_1_0_0_n_n.contr.Idx) :
    (dot_S1024x4096_S256x4096_S1024x256_1_1_0_0_n_n.lhsIdx i q 1).val = (q ⟨0, by decide⟩).val :=
  dot_S1024x4096_S256x4096_S1024x256_1_1_0_0_n_n.lhsIdx_val_of_single rfl i q
/-- The right operand index takes the output's column as its row; -/
theorem rhs_row (i : S1024x256.Idx) (q : dot_S1024x4096_S256x4096_S1024x256_1_1_0_0_n_n.contr.Idx) :
    (dot_S1024x4096_S256x4096_S1024x256_1_1_0_0_n_n.rhsIdx i q 0).val = (i 1).val := by
  unfold DotDims.rhsIdx
  rw [dif_neg (show ¬(0 : Fin S256x4096.rank) ∈ dot_S1024x4096_S256x4096_S1024x256_1_1_0_0_n_n.rhsBatch by decide), dif_pos (show (0 : Fin S256x4096.rank) ∈ dot_S1024x4096_S256x4096_S1024x256_1_1_0_0_n_n.rhsNonContracting by decide)]
  rfl
/-- its column is the contraction index. -/
theorem rhs_col (i : S1024x256.Idx) (q : dot_S1024x4096_S256x4096_S1024x256_1_1_0_0_n_n.contr.Idx) :
    (dot_S1024x4096_S256x4096_S1024x256_1_1_0_0_n_n.rhsIdx i q 1).val = (q ⟨0, by decide⟩).val :=
  dot_S1024x4096_S256x4096_S1024x256_1_1_0_0_n_n.rhsIdx_val_of_single rfl i q

/-- The contraction of the two operands' last axes into a zero accumulator, at `(p, q)`: `∑ k, l (p, k) · r (q, k)`. -/
theorem contraction_at (l : FVec Ideal S1024x4096 .bf16) (r : FVec Ideal S256x4096 .bf16) (p : Fin 1024) (q : Fin 256) :
    matmul dot_S1024x4096_S256x4096_S1024x256_1_1_0_0_n_n none l r (constant (F := Ideal) S1024x256 .f32 0x00000000#32) (ix2 p q)
      = ∑ k : Fin 4096, l (ix2 p k) * r (ix2 q k) := by
  refine (Ideal.matmul_constant_zero_apply dot_S1024x4096_S256x4096_S1024x256_1_1_0_0_n_n none l r (ix2 p q)).trans ?_
  rw [← Equiv.sum_comp (contrEquiv1 dot_S1024x4096_S256x4096_S1024x256_1_1_0_0_n_n 4096 rfl rfl).symm]
  refine Finset.sum_congr rfl fun k _ => ?_
  have hk := contrEquiv1_symm_val dot_S1024x4096_S256x4096_S1024x256_1_1_0_0_n_n 4096 rfl rfl k
  have el : dot_S1024x4096_S256x4096_S1024x256_1_1_0_0_n_n.lhsIdx (ix2 p q) ((contrEquiv1 dot_S1024x4096_S256x4096_S1024x256_1_1_0_0_n_n 4096 rfl rfl).symm k) = ix2 p k := funext fun a => Fin.ext (by
    match a with
    | ⟨0, _⟩ => exact lhs_row _ _
    | ⟨1, _⟩ => exact (lhs_col _ _).trans hk)
  have er : dot_S1024x4096_S256x4096_S1024x256_1_1_0_0_n_n.rhsIdx (ix2 p q) ((contrEquiv1 dot_S1024x4096_S256x4096_S1024x256_1_1_0_0_n_n 4096 rfl rfl).symm k) = ix2 q k := funext fun a => Fin.ext (by
    match a with
    | ⟨0, _⟩ => exact rhs_row _ _
    | ⟨1, _⟩ => exact (rhs_col _ _).trans hk)
  rw [el, er]

/-- The body's stored block at `(0, p, q)`: row `p` of the first loaded block against row `q` of the second. -/
theorem stored_at (v0 : Vec Ideal S1024x4096 .bf16) (v2 : Vec Ideal S1x256x4096 .f32) (p : Fin 1024) (q : Fin 256) :
    k1_pay1 (F := Ideal) v0 v2 (ix3 (0 : Fin 1) p q) = ∑ k : Fin 4096, v0 (ix2 p k) * v2 (ix3 (0 : Fin 1) q k) := by
  unfold k1_pay1
  refine (shapeCast_addUnit_apply ![1024, 256] _ shapeCasts_S1024x256_S1x1024x256 (ix3 (0 : Fin 1) p q)).trans ?_
  have hj : (fun a : Fin 2 => (ix3 (0 : Fin 1) p q : S1x1024x256.Idx) a.succ) = (ix2 p q : S1024x256.Idx) :=
    funext fun a => by match a with | ⟨0, _⟩ => rfl | ⟨1, _⟩ => rfl
  rw [hj]
  refine (contraction_at _ _ p q).trans ?_
  refine Finset.sum_congr rfl fun k _ => ?_
  have e0 : shapeCast S1024x4096 v0 shapeCasts_S1024x4096_S1024x4096 (ix2 p k) = v0 (ix2 p k) :=
    congrFun (shapeCast_self v0 shapeCasts_S1024x4096_S1024x4096) _
  have e1 : (truncf (F := Ideal) .bf16 (shapeCast S256x4096 (v2 : FVec Ideal S1x256x4096 .f32) shapeCasts_S1x256x4096_S256x4096) bitsLt_bf16_f32 : FVec Ideal S256x4096 .bf16) (ix2 q k) = v2 (ix3 (0 : Fin 1) q k) := by
    show shapeCast S256x4096 v2 shapeCasts_S1x256x4096_S256x4096 (ix2 q k) = _
    refine (shapeCast_dropUnit_apply ![256, 4096] v2 shapeCasts_S1x256x4096_S256x4096 (ix2 q k)).trans ?_
    exact congrArg v2 (funext fun a => by match a with | ⟨0, _⟩ => rfl | ⟨1, _⟩ => rfl | ⟨2, _⟩ => rfl)
  rw [e0, e1]

/-- The same at any entry `y` of the stored block, against arrays `a` and `x` of which the two loaded blocks hold
    row `o 1` (at the block's row `y 1`) and row `(o 0, o 2)` (at the block's row `y 2`): entry `o` of the
    rows-against-rows product of `a` and `x`. -/
theorem stored_entry (a : S4096x4096.Idx → EReal) (x : S8x2048x4096.Idx → EReal)
    (v0 : Vec Ideal S1024x4096 .bf16) (v2 : Vec Ideal S1x256x4096 .f32) (o : S8x4096x2048.Idx) (y : S1x1024x256.Idx)
    (h0 : ∀ k : Fin 4096, v0 (ix2 (⟨(y 1).val, (y 1).isLt⟩ : Fin 1024) k) = a (wAt ⟨(o 1).val, (o 1).isLt⟩ k))
    (h2 : ∀ k : Fin 4096, v2 (ix3 (0 : Fin 1) (⟨(y 2).val, (y 2).isLt⟩ : Fin 256) k) = x (xAt ⟨(o 0).val, (o 0).isLt⟩ ⟨(o 2).val, (o 2).isLt⟩ k)) :
    k1_pay1 (F := Ideal) v0 v2 y = rowProduct a x o := by
  have hy : y = ix3 (0 : Fin 1) (⟨(y 1).val, (y 1).isLt⟩ : Fin 1024) (⟨(y 2).val, (y 2).isLt⟩ : Fin 256) :=
    funext fun d => Fin.ext (by
      match d with
      | ⟨0, _⟩ => have h := (y 0).isLt; show (y 0).val = 0; change (y 0).val < 1 at h; omega
      | ⟨1, _⟩ => rfl
      | ⟨2, _⟩ => rfl)
  refine (congrArg (k1_pay1 (F := Ideal) v0 v2) hy).trans ?_
  refine (stored_at v0 v2 _ _).trans ?_
  unfold rowProduct
  exact Finset.sum_congr rfl fun k _ => by rw [h0 k, h2 k]

/-! ## From blocks to the array -/

/-- The printed index maps over the grid: the first window's block of rows is the output's on its middle axis, the second
    window's batch and block of rows are the output's on its first and last axes, and both sit at column block zero. -/
theorem windows_follow : ∀ t : Fin cfg1.N, win1_0.index t (0 : Fin 2) = win1_2.index t (1 : Fin 3)
    ∧ win1_0.index t (1 : Fin 2) = 0
    ∧ win1_1.index t (0 : Fin 3) = win1_2.index t (0 : Fin 3)
    ∧ win1_1.index t (1 : Fin 3) = win1_2.index t (2 : Fin 3)
    ∧ win1_1.index t (2 : Fin 3) = 0 :=
  (by decide +kernel : ∀ t : Fin grid1.N, _)

/-- Every block of the output is some point's. -/
theorem blocks_onto : ∀ (q0 : Fin 8) (q1 : Fin 4) (q2 : Fin 8), ∃ t : Fin cfg1.N, win1_2.index t = ![q0.val, q1.val, q2.val] :=
  (by decide +kernel : ∀ (q0 : Fin 8) (q1 : Fin 4) (q2 : Fin 8), ∃ t : Fin grid1.N, win1_2.index t = ![q0.val, q1.val, q2.val])

/-- What point `t` writes back is block `t` of the rows-against-rows product of the two arrays as the region finds them. -/
theorem flushed_eq (c : Dev nD) (t : Fin cfg1.N) :
    (dat1 V c).flushed 2 t = ((cfg1.win 2).blk t).view.read (Elt Ideal) (rowProduct (V c main_v1) (V c main_arg0)) := by
  show (cfg1.win 2).cut (grid1.coords t) ((dat1 V c).after 2 t) = _
  rw [after1_2]
  unfold out1_2
  rw [View.canon_unit_zero zero3]
  simp only [View.ld_unit_zero (S := S1024x4096) zero2, View.ld_unit_zero (S := S1x256x4096) zero3]
  obtain ⟨e0, e1, e2, e3, e4⟩ := windows_follow t
  funext y
  show k1_pay1 (F := Ideal) (iblk1 V c 0 t) (iblk1 V c 1 t) y = rowProduct (V c main_v1) (V c main_arg0) (((cfg1.win 2).blk t).view.emb y)
  refine stored_entry (V c main_v1) (V c main_arg0) (iblk1 V c 0 t) (iblk1 V c 1 t) (((cfg1.win 2).blk t).view.emb y) y ?_ ?_
  · intro k
    show V c main_v1 (((cfg1.win 0).blk t).view.emb (ix2 (⟨(y 1).val, (y 1).isLt⟩ : Fin 1024) k)) = _
    refine congrArg (V c main_v1) (funext fun d => Fin.ext ?_)
    match d with
    | ⟨0, _⟩ => show win1_0.index t (0 : Fin 2) * 1024 + 1 * (y 1).val = win1_2.index t (1 : Fin 3) * 1024 + 1 * (y 1).val; omega
    | ⟨1, _⟩ => show win1_0.index t (1 : Fin 2) * 4096 + 1 * k.val = k.val; omega
  · intro k
    show V c main_arg0 (((cfg1.win 1).blk t).view.emb (ix3 (0 : Fin 1) (⟨(y 2).val, (y 2).isLt⟩ : Fin 256) k)) = _
    refine congrArg (V c main_arg0) (funext fun d => Fin.ext ?_)
    match d with
    | ⟨0, _⟩ => show win1_1.index t (0 : Fin 3) * 1 + 1 * 0 = win1_2.index t (0 : Fin 3) * 1 + 1 * (y 0).val; have h := (y 0).isLt; change (y 0).val < 1 at h; omega
    | ⟨1, _⟩ => show win1_1.index t (1 : Fin 3) * 256 + 1 * (y 2).val = win1_2.index t (2 : Fin 3) * 256 + 1 * (y 2).val; omega
    | ⟨2, _⟩ => show win1_1.index t (2 : Fin 3) * 4096 + 1 * k.val = k.val; omega

/-- An entry is in point `t`'s block iff each coordinate is in the block's range on its axis. -/
theorem mem_blk (t : Fin cfg1.N) (i : S8x4096x2048.Idx) :
    i ∈ ((cfg1.win 2).blk t).view.set ↔ ∀ a : Fin 3, win1_2.index t a * S1x1024x256.size a ≤ (i a).val ∧ (i a).val < win1_2.index t a * S1x1024x256.size a + S1x1024x256.size a := by
  show i ∈ ((View.whole main_v2).slice (win1_2.rect t)).set ↔ _
  rw [View.set_slice_whole, Rect.mem_set_unit]
  exact Iff.rfl

/-- Entry `(b, r, s)` is in the block `(b, r / 1024, s / 256)`, which some point writes back. -/
theorem covered (i : S8x4096x2048.Idx) :
    ∃ t : Fin cfg1.N, (cfg1.win 2).flush t = true ∧ i ∈ ((cfg1.win 2).blk t).view.set := by
  have hi0 : (i 0).val < 8 := (i 0).isLt
  have hi1 : (i 1).val < 4096 := (i 1).isLt
  have hi2 : (i 2).val < 2048 := (i 2).isLt
  obtain ⟨t, ht⟩ := blocks_onto ⟨(i 0).val, hi0⟩ ⟨(i 1).val / 1024, by omega⟩ ⟨(i 2).val / 256, by omega⟩
  have q0 : win1_2.index t (0 : Fin 3) = (i 0).val := congrFun ht 0
  have q1 : win1_2.index t (1 : Fin 3) = (i 1).val / 1024 := congrFun ht 1
  have q2 : win1_2.index t (2 : Fin 3) = (i 2).val / 256 := congrFun ht 2
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 256 ≤ (i 2).val ∧ (i 2).val < win1_2.index t (2 : Fin 3) * 256 + 256; omega

/-- The output array after the region: the rows-against-rows product of the two input arrays as the region found them. -/
theorem product_array (c : Dev nD) :
    (dat1 V c).arrAt 2 cfg1.N = rowProduct (V c main_v1) (V c main_arg0) :=
  (dat1 V c).arrAt_eq_of_cover 2 (rowProduct (V c main_v1) (V c main_arg0)) (fun t _ => flushed_eq V c t) covered

end Cert.KernelIdeal.ProductRegion

end
-- ==== Proof.KernelRun.lean ====
/-
  The kernel's run, with its result.

  The program is a host line (the mask widened to 32-bit words) and two regions. Read through the buffer contents at
  the three boundaries: the second region leaves in the result array the rows-against-rows product of what it finds
  in the intermediate array and in `x`; `x` is as launched (nothing before writes it); the intermediate array is
  what the first region left, the weight selected where the widened mask word is not zero; the weight is as launched
  and the widened mask is the host line's result. A one-bit word widened and tested against zero is the bit, so the
  result array ends as the masked weight's rows against `x`'s rows.
-/
import proofs.«153969_j74345883894235_2_alg».proof.Proof.MaskRegion
import proofs.«153969_j74345883894235_2_alg».proof.Proof.ProductRegion
import Idealize.ShloMosaic.Lib.StableHlo.Run

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.MaskedProduct (rowProduct maskedWeight result masked select_widened)

variable (m : (ℓ : Loc nD τ sig) → Buf (Elt Ideal) ℓ) (ρ : Dev nD → PrngReg)

local notation "𝕄" => MT nD τ sig Unit (Elt Ideal) ℕ (UR sig nD τ) ℕ

/-! ## The contents at the boundaries -/

/-- `x` reaches the second region as launched. -/
theorem x_at_second (c : Dev nD) : V2 m ρ c main_arg0 = m ((c : Thread nD τ).loc main_arg0) :=
  ((W3_arr m ρ c 1).trans (((dat1 (V2 m ρ) c).arrAt_in 1 rfl _).trans (A_eq1 (V2 m ρ) c 1))).symm.trans (W3_main_arg0 m ρ c)

/-- The weight reaches the first region as launched. -/
theorem weight_at_first (c : Dev nD) : V1 m ρ c main_arg1 = m ((c : Thread nD τ).loc main_arg1) :=
  ((W2_arr m ρ c 0).trans (((dat0 (V1 m ρ) c).arrAt_in 0 rfl _).trans (A_eq0 (V1 m ρ) c 0))).symm.trans
    ((W3_of_ne m ρ c main_arg1 (by decide)).symm.trans (W3_main_arg1 m ρ c))

/-- The first region finds the mask widened to 32-bit words. -/
theorem mask_at_first (c : Dev nD) :
    V1 m ρ c main_v0 = extui 32 (m ((c : Thread nD τ).loc main_arg2)) natLt_1_32 := by
  show StableHlo.after hostOps0 (W0 m ρ c) (Proc.devRef .tc main_v0) = _
  after_results

/-- The second region finds, in the intermediate array, what the first left. -/
theorem intermediate_at_second (c : Dev nD) :
    V2 m ρ c main_v1 = MaskRegion.selected (V1 m ρ c main_arg1) (V1 m ρ c main_v0) :=
  (W2_arr m ρ c 2).trans (MaskRegion.masked_array (V1 m ρ) c)

/-- The weight selected where the widened mask word is not zero is the masked weight. -/
theorem selected_widened (w : S4096x4096.Idx → EReal) (mk : S4096x4096.Idx → BitVec 1) :
    MaskRegion.selected w (extui 32 mk natLt_1_32) = maskedWeight w mk :=
  funext fun i => select_widened (w i) (mk i)

/-- The result array after the run. -/
theorem result_array (c : Dev nD) :
    W3 m ρ c (Proc.devRef .tc main_v2)
      = result (m ((c : Thread nD τ).loc main_arg0)) (m ((c : Thread nD τ).loc main_arg1)) (m ((c : Thread nD τ).loc main_arg2)) := by
  refine (W3_arr m ρ c 2).trans ((ProductRegion.product_array (V2 m ρ) c).trans ?_)
  rw [x_at_second, intermediate_at_second, weight_at_first, mask_at_first, selected_widened]
  rfl

/-! ## The run -/

-- the launch theorem's implicit arguments are found by unifying its conclusion with this one, which takes unfolding
-- plain definitions in a metavariable's type
set_option backward.isDefEq.respectTransparency.types false in
/-- Every weakly fair execution of the kernel's program terminates, nothing faulting, with the result array at the
    masked weight's rows against `x`'s rows and the arguments as launched: the launch over the program's segments,
    the last boundary's contents read against the final state. -/
theorem run : θ_run defs (onTc (τ := τ) (main (F := Ideal))) ⟨m, fun _ => 0, ρ⟩ (fun r => ∀ c : Dev nD,
      r.2.mem ((c.tc : Thread nD τ).loc main_v2)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (result_array m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.Run

end
-- ==== Proof.lean ====
/-
  Kernel against reference, on the extended reals.

  Both programs take `x : [8, 2048, 4096]`, a weight `w : [4096, 4096]` and a one-bit mask of `w`'s shape, and return
  the `[8, 4096, 2048]` array whose entry `(b, r, s)` is

      ∑ k : Fin 4096,  (if mask (r, k) = 1 then w (r, k) else 0) · x (b, s, k).

  The kernel gets there in two regions. The first writes the masked weight: the mask is widened to 32-bit words on
  the host, and each entry is the weight where that word is not zero and zero elsewhere (a widened bit is not zero
  exactly when the bit is set). The second contracts, block by block, the last axis of the masked weight's rows
  against the last axis of `x`'s rows into a zero accumulator; its output blocks tile the result, and on the extended
  reals a change of float format is the identity and the contraction is the plain sum. The reference multiplies the
  weight by the mask read as a number (`w · 1 = w`, `w · 0 = 0` on every extended real), contracts `x`'s last axis
  against the product's last axis and transposes the last two axes of the result; entry by entry that is the same
  sum with the two factors of each term in the other order. No law used needs a finite operand, so the precondition
  is never opened; the idealization rewrote nothing, so there is nothing to preserve.
-/
import proofs.«153969_j74345883894235_2_alg».proof.Defs
import proofs.«153969_j74345883894235_2_alg».proof.Proof.Gen.Kernel
import proofs.«153969_j74345883894235_2_alg».proof.Proof.Gen.Kernel.Skeleton
import proofs.«153969_j74345883894235_2_alg».proof.Proof.Gen.Kernel.Launch
import proofs.«153969_j74345883894235_2_alg».proof.Proof.Gen.Kernel.Points
import proofs.«153969_j74345883894235_2_alg».proof.Proof.Gen.Kernel.Frame
import proofs.«153969_j74345883894235_2_alg».proof.Proof.Gen.KernelIdeal
import proofs.«153969_j74345883894235_2_alg».proof.Proof.Gen.KernelIdeal.Skeleton
import proofs.«153969_j74345883894235_2_alg».proof.Proof.Gen.KernelIdeal.Launch
import proofs.«153969_j74345883894235_2_alg».proof.Proof.Gen.KernelIdeal.Points
import proofs.«153969_j74345883894235_2_alg».proof.Proof.Gen.KernelIdeal.Frame
import proofs.«153969_j74345883894235_2_alg».proof.Proof.Gen.ReferenceIdeal
import proofs.«153969_j74345883894235_2_alg».proof.Proof.Gen.Pre_finite_inputs
import proofs.«153969_j74345883894235_2_alg».proof.Proof.Gen.ReferenceIdeal.Read
import proofs.«153969_j74345883894235_2_alg».proof.Proof.ReferenceValue
import proofs.«153969_j74345883894235_2_alg».proof.Proof.KernelRun
import Idealize.ShloMosaic.Adequacy
import Idealize.ShloMosaic.Init

noncomputable section

namespace Cert.Proof

open Idealize.ShloMosaic Idealize.ShloMosaic.TcCoe Idealize.SL.Sem

/-- Each program runs to the end, nothing faulting, its arguments unchanged: the two kernels' by their generated
    frames, the reference's by its run with the result dropped. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the masked weight's rows against `x`'s rows. -/
theorem algebraic : Cert.algebraic_KernelIdeal_ReferenceIdeal := by
  intro m ρ m' ρ' _ hagree
  refine ⟨fun c => Cert.MaskedProduct.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.reference_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
